-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel

variable [Facts]

def fn {F : FTy → Type} [FloatOps F] (main_arg0 : FVec F S8388608x4 .f32) (main_arg1 : FVec F S8388608x4 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  let main_v4 : FVec F S8388608x4 .f32 := Host.absf main_arg1
  let main_cst_0 : FVec F S_ .f32 := constant S_ .f32 0x7F800000#32
  let main_v5 : FVec F S8388608x4 .f32 := broadcastInDim S8388608x4 ![] bcast_S_S8388608x4 main_cst_0
  let main_v6 : IVec S8388608x4 1 := cmpf .olt main_v4 main_v5
  let main_c_1 : IVec S_ 1 := constantI S_ 1 1#1
  let main_v7 : IVec S_ 1 := (fun x v => Host.reduce IntOp.andi x v reducesTo_S8388608x4_S_d0_1 h_S_) main_v6 main_c_1
  let main_v8 : IVec S_ 1 := andi main_v3 main_v7
  main_v8
-- ==== Kernel.lean ====
abbrev S8388608x4 : Shape := ⟨2, ![8388608, 4]⟩
abbrev S8388608x1 : Shape := ⟨2, ![8388608, 1]⟩
abbrev S4096x4 : Shape := ⟨2, ![4096, 4]⟩
abbrev S4096x1 : Shape := ⟨2, ![4096, 1]⟩

abbrev nBuf : Space → Nat
  | .hbm => 4
  | .vmem => 8
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .hbm, ⟨2, _⟩ => ⟨S8388608x4, .f32⟩
  | .hbm, ⟨3, _⟩ => ⟨S8388608x1, .f32⟩
  | .local _ .vmem, ⟨0, _⟩ => ⟨S4096x4, .f32⟩
  | .local _ .vmem, ⟨1, _⟩ => ⟨S4096x4, .f32⟩
  | .local _ .vmem, ⟨2, _⟩ => ⟨S4096x4, .f32⟩
  | .local _ .vmem, ⟨3, _⟩ => ⟨S4096x4, .f32⟩
  | .local _ .vmem, ⟨4, _⟩ => ⟨S4096x4, .f32⟩
  | .local _ .vmem, ⟨5, _⟩ => ⟨S4096x4, .f32⟩
  | .local _ .vmem, ⟨6, _⟩ => ⟨S4096x1, .f32⟩
  | .local _ .vmem, ⟨7, _⟩ => ⟨S4096x1, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4096x4_S4096x4_0_0 : ∀ a, (![0, 0] : Fin 2 → Nat) a + S4096x4.size a ≤ S4096x4.size a
  h_S4096x4 : 0 < S4096x4.numel
  slices_S4096x4_o0_3_S4096x1 : S4096x4.Slices ![0, 3] S4096x1
  slices_S4096x4_o0_2_S4096x1 : S4096x4.Slices ![0, 2] S4096x1
  slices_S4096x4_o0_1_S4096x1 : S4096x4.Slices ![0, 1] S4096x1
  slices_S4096x4_o0_0_S4096x1 : S4096x4.Slices ![0, 0] S4096x1
  concatenates_S4096x1_S4096x1_S4096x1_S4096x1_S4096x4_d1 : Shape.Concatenates [S4096x1, S4096x1, S4096x1, S4096x1] S4096x4 1
  inb_S4096x1_S4096x1_0_0 : ∀ a, (![0, 0] : Fin 2 → Nat) a + S4096x1.size a ≤ S4096x1.size a
  h_S4096x1 : 0 < S4096x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4.size a ≤ S8388608x4.size a
  hwx0_0 : ∀ i : grid0.Coords, EltTy.bits .f32 = 32 ∨ (Rect.block (s := S8388608x4) S4096x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x4.size a ≤ S8388608x4.size a
  hwx0_1 : ∀ i : grid0.Coords, EltTy.bits .f32 = 32 ∨ (Rect.block (s := S8388608x4) S4096x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x4.size a ≤ S8388608x4.size a
  hwx0_2 : ∀ i : grid0.Coords, EltTy.bits .f32 = 32 ∨ (Rect.block (s := S8388608x4) S4096x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S8388608x1.size a
  hwx0_3 : ∀ i : grid0.Coords, EltTy.bits .f32 = 32 ∨ (Rect.block (s := S8388608x1) S4096x1.size (cc0_transform_3 i) (hinb0_3 i)).WholeWords (EltTy.packing .f32)

variable [Facts₀]

abbrev win0_0 : Pipeline.Window sig grid0 :=
  Pipeline.Window.ofSpec (Memref.whole main_arg0) S4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4096x4.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S4096x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8388608x4 : Shape := ⟨2, ![8388608, 4]⟩
abbrev S8388608x1 : Shape := ⟨2, ![8388608, 1]⟩
abbrev S_ : Shape := ⟨0, ![]⟩

abbrev nBuf : Space → Nat
  | .hbm => 110
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .hbm, ⟨2, _⟩ => ⟨S8388608x1, .f32⟩
  | .hbm, ⟨3, _⟩ => ⟨S_, .f32⟩
  | .hbm, ⟨4, _⟩ => ⟨S8388608x1, .f32⟩
  | .hbm, ⟨5, _⟩ => ⟨S8388608x1, .f32⟩
  | .hbm, ⟨6, _⟩ => ⟨S8388608x1, .f32⟩
  | .hbm, ⟨7, _⟩ => ⟨S8388608x1, .f32⟩
  | .hbm, ⟨8, _⟩ => ⟨S_, .f32⟩
  | .hbm, ⟨9, _⟩ => ⟨S8388608x1, .f32⟩
  | .hbm, ⟨10, _⟩ => ⟨S8388608x1, .f32⟩
  | .hbm, ⟨11, _⟩ => ⟨S8388608x1, .f32⟩
  | .hbm, ⟨12, _⟩ => ⟨S8388608x1, .f32⟩
  | .hbm, ⟨13, _⟩ => ⟨S8388608x1, .f32⟩
  | .hbm, ⟨14, _⟩ => ⟨S_, .f32⟩
  | .hbm, ⟨15, _⟩ => ⟨S8388608x1, .f32⟩
  | .hbm, ⟨16, _⟩ => ⟨S8388608x1, .f32⟩
  | .hbm, ⟨17, _⟩ => ⟨S8388608x1, .f32⟩
  | .hbm, ⟨18, _⟩ => ⟨S8388608x1, .f32⟩
  | .hbm, ⟨19, _⟩ => ⟨S_, .f32⟩
  | .hbm, ⟨20, _⟩ => ⟨S8388608x1, .f32⟩
  | .hbm, ⟨21, _⟩ => ⟨S8388608x1, .f32⟩
  | .hbm, ⟨22, _⟩ => ⟨S8388608x1, .f32⟩
  | .hbm, ⟨23, _⟩ => ⟨S8388608x1, .f32⟩
  | .hbm, ⟨24, _⟩ => ⟨S8388608x1, .f32⟩
  | .hbm, ⟨25, _⟩ => ⟨S8388608x1, .f32⟩
  | .hbm, ⟨26, _⟩ => ⟨S8388608x1, .f32⟩
  | .hbm, ⟨27, _⟩ => ⟨S8388608x1, .f32⟩
  | .hbm, ⟨28, _⟩ => ⟨S8388608x1, .f32⟩
  | .hbm, ⟨29, _⟩ => ⟨S8388608x1, .f32⟩
  | .hbm, ⟨30, _⟩ => ⟨S8388608x1, .f32⟩
  | .hbm, ⟨31, _⟩ => ⟨S8388608x1, .f32⟩
  | .hbm, ⟨32, _⟩ => ⟨S8388608x1, .f32⟩
  | .hbm, ⟨33, _⟩ => ⟨S8388608x1, .f32⟩
  | .hbm, ⟨34, _⟩ => ⟨S_, .f32⟩
  | .hbm, ⟨35, _⟩ => ⟨S8388608x1, .f32⟩
  | .hbm, ⟨36, _⟩ => ⟨S8388608x1, .f32⟩
  | .hbm, ⟨37, _⟩ => ⟨S8388608x1, .f32⟩
  | .hbm, ⟨38, _⟩ => ⟨S8388608x1, .f32⟩
  | .hbm, ⟨39, _⟩ => ⟨S8388608x1, .f32⟩
  | .hbm, ⟨40, _⟩ => ⟨S_, .f32⟩
  | .hbm, ⟨41, _⟩ => ⟨S8388608x1, .f32⟩
  | .hbm, ⟨42, _⟩ => ⟨S8388608x1, .f32⟩
  | .hbm, ⟨43, _⟩ => ⟨S8388608x1, .f32⟩
  | .hbm, ⟨44, _⟩ => ⟨S8388608x1, .f32⟩
  | .hbm, ⟨45, _⟩ => ⟨S_, .f32⟩
  | .hbm, ⟨46, _⟩ => ⟨S8388608x1, .f32⟩
  | .hbm, ⟨47, _⟩ => ⟨S8388608x1, .f32⟩
  | .hbm, ⟨48, _⟩ => ⟨S8388608x1, .f32⟩
  | .hbm, ⟨49, _⟩ => ⟨S8388608x1, .f32⟩
  | .hbm, ⟨50, _⟩ => ⟨S8388608x1, .f32⟩
  | .hbm, ⟨51, _⟩ => ⟨S8388608x1, .f32⟩
  | .hbm, ⟨52, _⟩ => ⟨S8388608x1, .f32⟩
  | .hbm, ⟨53, _⟩ => ⟨S8388608x1, .f32⟩
  | .hbm, ⟨54, _⟩ => ⟨S8388608x1, .f32⟩
  | .hbm, ⟨55, _⟩ => ⟨S8388608x1, .f32⟩
  | .hbm, ⟨56, _⟩ => ⟨S8388608x1, .f32⟩
  | .hbm, ⟨57, _⟩ => ⟨S8388608x1, .f32⟩
  | .hbm, ⟨58, _⟩ => ⟨S8388608x1, .f32⟩
  | .hbm, ⟨59, _⟩ => ⟨S8388608x1, .f32⟩
  | .hbm, ⟨60, _⟩ => ⟨S_, .f32⟩
  | .hbm, ⟨61, _⟩ => ⟨S8388608x1, .f32⟩
  | .hbm, ⟨62, _⟩ => ⟨S8388608x1, .f32⟩
  | .hbm, ⟨63, _⟩ => ⟨S8388608x1, .f32⟩
  | .hbm, ⟨64, _⟩ => ⟨S8388608x1, .f32⟩
  | .hbm, ⟨65, _⟩ => ⟨S8388608x1, .f32⟩
  | .hbm, ⟨66, _⟩ => ⟨S_, .f32⟩
  | .hbm, ⟨67, _⟩ => ⟨S8388608x1, .f32⟩
  | .hbm, ⟨68, _⟩ => ⟨S8388608x1, .f32⟩
  | .hbm, ⟨69, _⟩ => ⟨S8388608x1, .f32⟩
  | .hbm, ⟨70, _⟩ => ⟨S8388608x1, .f32⟩
  | .hbm, ⟨71, _⟩ => ⟨S_, .f32⟩
  | .hbm, ⟨72, _⟩ => ⟨S8388608x1, .f32⟩
  | .hbm, ⟨73, _⟩ => ⟨S8388608x1, .f32⟩
  | .hbm, ⟨74, _⟩ => ⟨S8388608x1, .f32⟩
  | .hbm, ⟨75, _⟩ => ⟨S8388608x1, .f32⟩
  | .hbm, ⟨76, _⟩ => ⟨S8388608x1, .f32⟩
  | .hbm, ⟨77, _⟩ => ⟨S8388608x1, .f32⟩
  | .hbm, ⟨78, _⟩ => ⟨S8388608x1, .f32⟩
  | .hbm, ⟨79, _⟩ => ⟨S8388608x1, .f32⟩
  | .hbm, ⟨80, _⟩ => ⟨S8388608x1, .f32⟩
  | .hbm, ⟨81, _⟩ => ⟨S8388608x1, .f32⟩
  | .hbm, ⟨82, _⟩ => ⟨S8388608x1, .f32⟩
  | .hbm, ⟨83, _⟩ => ⟨S8388608x1, .f32⟩
  | .hbm, ⟨84, _⟩ => ⟨S8388608x1, .f32⟩
  | .hbm, ⟨85, _⟩ => ⟨S8388608x1, .f32⟩
  | .hbm, ⟨86, _⟩ => ⟨S_, .f32⟩
  | .hbm, ⟨87, _⟩ => ⟨S8388608x1, .f32⟩
  | .hbm, ⟨88, _⟩ => ⟨S8388608x1, .f32⟩
  | .hbm, ⟨89, _⟩ => ⟨S8388608x1, .f32⟩
  | .hbm, ⟨90, _⟩ => ⟨S8388608x1, .f32⟩
  | .hbm, ⟨91, _⟩ => ⟨S8388608x1, .f32⟩
  | .hbm, ⟨92, _⟩ => ⟨S_, .f32⟩
  | .hbm, ⟨93, _⟩ => ⟨S8388608x1, .f32⟩
  | .hbm, ⟨94, _⟩ => ⟨S8388608x1, .f32⟩
  | .hbm, ⟨95, _⟩ => ⟨S8388608x1, .f32⟩
  | .hbm, ⟨96, _⟩ => ⟨S8388608x1, .f32⟩
  | .hbm, ⟨97, _⟩ => ⟨S_, .f32⟩
  | .hbm, ⟨98, _⟩ => ⟨S8388608x1, .f32⟩
  | .hbm, ⟨99, _⟩ => ⟨S8388608x1, .f32⟩
  | .hbm, ⟨100, _⟩ => ⟨S8388608x1, .f32⟩
  | .hbm, ⟨101, _⟩ => ⟨S8388608x1, .f32⟩
  | .hbm, ⟨102, _⟩ => ⟨S8388608x1, .f32⟩
  | .hbm, ⟨103, _⟩ => ⟨S8388608x1, .f32⟩
  | .hbm, ⟨104, _⟩ => ⟨S8388608x1, .f32⟩
  | .hbm, ⟨105, _⟩ => ⟨S8388608x1, .f32⟩
  | .hbm, ⟨106, _⟩ => ⟨S8388608x1, .f32⟩
  | .hbm, ⟨107, _⟩ => ⟨S8388608x1, .f32⟩
  | .hbm, ⟨108, _⟩ => ⟨S8388608x1, .f32⟩
  | .hbm, ⟨109, _⟩ => ⟨S8388608x4, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_6 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_7 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_8 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_9 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_10 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_11 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩

abbrev nD : Nat := 1
abbrev τ : Topo := Topo.v7x

variable {F : FTy → Type} [FloatOps F]

class Facts₀ : Prop where
  slices_S8388608x4_S8388608x1_0_0 : S8388608x4.Slices ![0, 0] S8388608x1
  bcast_S_S8388608x1 : S_.BroadcastsInDim S8388608x1 (![] : Fin 0 → Fin S8388608x1.rank)
  slices_S8388608x4_S8388608x1_0_3 : S8388608x4.Slices ![0, 3] S8388608x1
  slices_S8388608x4_S8388608x1_0_2 : S8388608x4.Slices ![0, 2] S8388608x1
  slices_S8388608x4_S8388608x1_0_1 : S8388608x4.Slices ![0, 1] S8388608x1
  concatenates_S8388608x1_S8388608x1_S8388608x1_S8388608x1_S8388608x4_d1 : Shape.Concatenates [S8388608x1, S8388608x1, S8388608x1, S8388608x1] S8388608x4 1

variable [Facts₀]

class Facts : Prop extends Facts₀ where

variable [Facts]
-- ==== Proof.LibFourColumns.lean ====
/-
  Matrices of four columns, read at an index.

  Two facts about a matrix with n rows and four columns, for any n and any element type:
  * `column_at`: column j, cut out as an [n, 1] slice at offset (0, j), read at row r is the matrix's entry (r, j);
  * `join4_at`: four [n, 1] columns joined along the second axis into an [n, 4] matrix, read at (r, j), give column
    j's entry at row r.
  Together they say that cutting a four-column matrix into its columns, computing column by column, and joining the four
  results is a computation row by row.
-/
import Idealize.ShloMosaic.Lib.ValueIdx
import Idealize.ShloMosaic.Lib.ValueLayout
import Idealize.ShloMosaic.Lib.Pipeline.Value

namespace Cert.FourColumns

open Idealize.ShloMosaic Idealize.ShloMosaic.ValueIdx

section Layout
variable {α : Type} {n : Nat}

/-- Column j of an [n, 4] matrix, read at row r, is the matrix's entry (r, j). -/
theorem column_at (j : Fin 4) (X : (⟨2, ![n, 4]⟩ : Shape).Idx → α)
    (h : (⟨2, ![n, 4]⟩ : Shape).Slices ![0, j.val] ⟨2, ![n, 1]⟩) (r : Fin n) :
    extractStridedSlice ⟨2, ![n, 1]⟩ ![0, j.val] X h (ix2 r 0) = X (ix2 r j) :=
  slice2_axis1_apply j.val X h r 0 j (Nat.add_zero _).symm

/-- Four [n, 1] columns joined along the second axis, read at (r, j), give column j's entry at row r. -/
theorem join4_at (p0 p1 p2 p3 : (⟨2, ![n, 1]⟩ : Shape).Idx → α)
    (h : Shape.Concatenates (([⟨⟨2, ![n, 1]⟩, p0⟩, ⟨⟨2, ![n, 1]⟩, p1⟩, ⟨⟨2, ![n, 1]⟩, p2⟩, ⟨⟨2, ![n, 1]⟩, p3⟩] :
      List ((s : Shape) × (s.Idx → α))).map (·.1)) ⟨2, ![n, 4]⟩ 1) (r : Fin n) (j : Fin 4) :
    concatenate ⟨2, ![n, 4]⟩ 1 [⟨⟨2, ![n, 1]⟩, p0⟩, ⟨⟨2, ![n, 1]⟩, p1⟩, ⟨⟨2, ![n, 1]⟩, p2⟩, ⟨⟨2, ![n, 1]⟩, p3⟩] h (ix2 r j)
      = (match j with | ⟨0, _⟩ => p0 | ⟨1, _⟩ => p1 | ⟨2, _⟩ => p2 | ⟨3, _⟩ => p3) (ix2 r 0) := by
  have off : ∀ b : Fin 2, b.cast rfl ≠ (1 : Fin 2) → ((ix2 r (0 : Fin 1)) b).val = ((ix2 r j) (b.cast rfl)).val := by
    intro b hb
    match b with
    | ⟨0, _⟩ => rfl
    | ⟨1, _⟩ => exact absurd rfl hb
  match j with
  | ⟨0, _⟩ =>
    exact concatenate_apply_piece 1 _ h _ 0 (by show _ < 4; omega) ⟨2, ![n, 1]⟩ p0 rfl rfl 0 rfl (ix2 r 0) off rfl
  | ⟨1, _⟩ =>
    exact concatenate_apply_piece 1 _ h _ 1 (by show _ < 4; omega) ⟨2, ![n, 1]⟩ p1 rfl rfl 1 rfl (ix2 r 0) off rfl
  | ⟨2, _⟩ =>
    exact concatenate_apply_piece 1 _ h _ 2 (by show _ < 4; omega) ⟨2, ![n, 1]⟩ p2 rfl rfl 2 rfl (ix2 r 0) off rfl
  | ⟨3, _⟩ =>
    exact concatenate_apply_piece 1 _ h _ 3 (by show _ < 4; omega) ⟨2, ![n, 1]⟩ p3 rfl rfl 3 rfl (ix2 r 0) off rfl

end Layout

end Cert.FourColumns
-- ==== Proof.BorrowChain.lean ====
/-
  The ripple-borrow subtractor as a function of one row.

  A row of each argument holds four gate levels a₀ a₁ a₂ a₃ and b₀ b₁ b₂ b₃ (bit 3 is the least significant). The gates
  are arithmetic: exclusive-or is x + y − (2·x)·y, inclusive-or is x + y − x·y, conjunction is x·y and negation is 1 − x.
  Stage k takes the incoming borrow c and produces the difference bit xor (xor aₖ bₖ) c and the outgoing borrow
  or (or ((1 − aₖ)·bₖ) ((1 − aₖ)·c)) (bₖ·c). The stages run from bit 3 to bit 0, the first borrow is 0; the results are the
  four difference bits (in bit order) and the last borrow.

  Nothing here uses a law of arithmetic: the two programs compared in this certificate apply the same operations in the
  same order, so the row function is stated with the float operations of an arbitrary instance and every later equation
  is an unfolding.
-/
import Idealize.ShloMosaic.PureOps.Ideal
import Idealize.ShloMosaic.Lib.ValueIdx
import proofs.«144715_j23407571764120_1_alg».proof.Proof.LibFourColumns

noncomputable section

namespace Cert.BorrowChain

open Idealize.ShloMosaic Idealize.ShloMosaic.ValueIdx

variable {F : FTy → Type} [FloatOps F]

/-- The gate level 0. -/
def lvl0 : F .f32 := FloatOps.ofBits .f32 0x00000000#32
/-- The gate level 1. -/
def lvl1 : F .f32 := FloatOps.ofBits .f32 0x3F800000#32
/-- The factor 2 of the exclusive-or gate. -/
def lvl2 : F .f32 := FloatOps.ofBits .f32 0x40000000#32

/-- Exclusive-or of two gate levels: x + y − (2·x)·y. -/
def gxor (x y : F .f32) : F .f32 :=
  FloatOps.subf (FloatOps.addf x y) (FloatOps.mulf (FloatOps.mulf lvl2 x) y)

/-- Inclusive-or of two gate levels: x + y − x·y. -/
def gor (x y : F .f32) : F .f32 :=
  FloatOps.subf (FloatOps.addf x y) (FloatOps.mulf x y)

/-- One stage's difference bit: xor (xor a b) c. -/
def diffBit (a b c : F .f32) : F .f32 := gxor (gxor a b) c

/-- One stage's outgoing borrow: or (or ((1 − a)·b) ((1 − a)·c)) (b·c). -/
def borrowOut (a b c : F .f32) : F .f32 :=
  gor (gor (FloatOps.mulf (FloatOps.subf lvl1 a) b) (FloatOps.mulf (FloatOps.subf lvl1 a) c)) (FloatOps.mulf b c)

/-- The borrow after bit 3. -/
def borrow1 (a b : Fin 4 → F .f32) : F .f32 := borrowOut (a 3) (b 3) lvl0
/-- The borrow after bit 2. -/
def borrow2 (a b : Fin 4 → F .f32) : F .f32 := borrowOut (a 2) (b 2) (borrow1 a b)
/-- The borrow after bit 1. -/
def borrow3 (a b : Fin 4 → F .f32) : F .f32 := borrowOut (a 1) (b 1) (borrow2 a b)
/-- The borrow after bit 0: the subtractor's borrow output. -/
def borrow4 (a b : Fin 4 → F .f32) : F .f32 := borrowOut (a 0) (b 0) (borrow3 a b)

/-- The four difference bits of a row, in bit order. -/
def diffs (a b : Fin 4 → F .f32) : Fin 4 → F .f32 := fun j =>
  match j with
  | ⟨0, _⟩ => diffBit (a 0) (b 0) (borrow3 a b)
  | ⟨1, _⟩ => diffBit (a 1) (b 1) (borrow2 a b)
  | ⟨2, _⟩ => diffBit (a 2) (b 2) (borrow1 a b)
  | ⟨3, _⟩ => diffBit (a 3) (b 3) lvl0

/-- Row r of an [n, 4] matrix. -/
def rowOf {n : Nat} (X : (⟨2, ![n, 4]⟩ : Shape).Idx → F .f32) (r : Fin n) : Fin 4 → F .f32 := fun k => X (ix2 r k)

/-- The difference bits of every row: an [n, 4] matrix. -/
def diffArr {n : Nat} (A B : (⟨2, ![n, 4]⟩ : Shape).Idx → F .f32) : (⟨2, ![n, 4]⟩ : Shape).Idx → F .f32 :=
  fun i => diffs (rowOf A (i 0)) (rowOf B (i 0)) (i 1)

/-- The borrow output of every row: an [n, 1] column. -/
def borrowArr {n : Nat} (A B : (⟨2, ![n, 4]⟩ : Shape).Idx → F .f32) : (⟨2, ![n, 1]⟩ : Shape).Idx → F .f32 :=
  fun i => borrow4 (rowOf A (i 0)) (rowOf B (i 0))

end Cert.BorrowChain

end
-- ==== Proof.KernelRows.lean ====
/-
  The kernel body, row by row.

  The body's arithmetic, as the generated skeleton states it, is a chain of payload terms over the two loaded [4096, 4]
  blocks: the column slices of the blocks, a zero column, and one group of pointwise operations per bit from bit 3 to
  bit 0. Read at row r of the block, each payload is a term of the borrow chain of row r of the two blocks. The joined
  [4096, 4] payload read at (r, j) is difference bit j of that row, and the [4096, 1] payload read at row r is the row's
  final borrow.
-/
import proofs.«144715_j23407571764120_1_alg».proof.Proof.Gen.KernelIdeal.Skeleton
import proofs.«144715_j23407571764120_1_alg».proof.Proof.BorrowChain

noncomputable section

namespace Cert.KernelIdeal.Rows

open Cert.KernelIdeal Cert.KernelIdeal.Gen Cert.BorrowChain Cert.FourColumns
open Idealize.ShloMosaic Idealize.ShloMosaic.ValueIdx

variable {F : FTy → Type} [FloatOps F]
variable (x0 x1 : Vec F S4096x4 .f32) (r : Fin 4096)

/-- Row r of the first loaded block. -/
def rowA : Fin 4 → F .f32 := rowOf (n := 4096) x0 r
/-- Row r of the second loaded block. -/
def rowB : Fin 4 → F .f32 := rowOf (n := 4096) x1 r

/-! ## Bit 3 -/

theorem zero_at : k0_pay1 (F := F) (ix2 r 0) = (lvl0 : F .f32) := rfl

theorem a3_at : k0_pay2 x0 (ix2 r 0) = rowA x0 r 3 := column_at (n := 4096) 3 x0 slices_S4096x4_o0_3_S4096x1 r
theorem b3_at : k0_pay3 x1 (ix2 r 0) = rowB x1 r 3 := column_at (n := 4096) 3 x1 slices_S4096x4_o0_3_S4096x1 r

/-- The difference bit of bit 3. -/
theorem diff3_at : k0_pay4 x0 x1 (ix2 r 0) = diffBit (rowA x0 r 3) (rowB x1 r 3) (lvl0 : F .f32) := by
  show diffBit (k0_pay2 x0 (ix2 r 0)) (k0_pay3 x1 (ix2 r 0)) (k0_pay1 (F := F) (ix2 r 0)) = _
  rw [a3_at, b3_at, zero_at]

/-- The borrow after bit 3. -/
theorem borrow1_at : k0_pay5 x0 x1 (ix2 r 0) = borrow1 (rowA x0 r) (rowB x1 r) := by
  show borrowOut (k0_pay2 x0 (ix2 r 0)) (k0_pay3 x1 (ix2 r 0)) (k0_pay1 (F := F) (ix2 r 0)) = _
  rw [a3_at, b3_at, zero_at]; rfl

/-! ## Bit 2 -/

theorem a2_at : k0_pay6 x0 (ix2 r 0) = rowA x0 r 2 := column_at (n := 4096) 2 x0 slices_S4096x4_o0_2_S4096x1 r
theorem b2_at : k0_pay7 x1 (ix2 r 0) = rowB x1 r 2 := column_at (n := 4096) 2 x1 slices_S4096x4_o0_2_S4096x1 r

/-- The difference bit of bit 2. -/
theorem diff2_at : k0_pay8 x0 x1 (ix2 r 0) = diffBit (rowA x0 r 2) (rowB x1 r 2) (borrow1 (rowA x0 r) (rowB x1 r)) := by
  show diffBit (k0_pay6 x0 (ix2 r 0)) (k0_pay7 x1 (ix2 r 0)) (k0_pay5 x0 x1 (ix2 r 0)) = _
  rw [a2_at, b2_at, borrow1_at]

/-- The borrow after bit 2: the body carries it as a sum and a product, subtracted where it is used. -/
theorem borrow2_at :
    k0_pay13 (k0_pay11 x0 x1) (k0_pay12 x0 x1) (ix2 r 0) = borrow2 (rowA x0 r) (rowB x1 r) := by
  show borrowOut (k0_pay6 x0 (ix2 r 0)) (k0_pay7 x1 (ix2 r 0)) (k0_pay5 x0 x1 (ix2 r 0)) = _
  rw [a2_at, b2_at, borrow1_at]; rfl

/-! ## Bit 1 -/

theorem a1_at : k0_pay14 x0 (ix2 r 0) = rowA x0 r 1 := column_at (n := 4096) 1 x0 slices_S4096x4_o0_1_S4096x1 r
theorem b1_at : k0_pay15 x1 (ix2 r 0) = rowB x1 r 1 := column_at (n := 4096) 1 x1 slices_S4096x4_o0_1_S4096x1 r

/-- The borrow after bit 1. -/
theorem borrow3_at :
    k0_pay16 x0 x1 (k0_pay11 x0 x1) (k0_pay12 x0 x1) (ix2 r 0) = borrow3 (rowA x0 r) (rowB x1 r) := by
  show borrowOut (k0_pay14 x0 (ix2 r 0)) (k0_pay15 x1 (ix2 r 0)) (k0_pay13 (k0_pay11 x0 x1) (k0_pay12 x0 x1) (ix2 r 0)) = _
  rw [a1_at, b1_at, borrow2_at]; rfl

/-! ## Bit 0 -/

theorem a0_at : k0_pay17 x0 (ix2 r 0) = rowA x0 r 0 := column_at (n := 4096) 0 x0 slices_S4096x4_o0_0_S4096x1 r
theorem b0_at : k0_pay18 x1 (ix2 r 0) = rowB x1 r 0 := column_at (n := 4096) 0 x1 slices_S4096x4_o0_0_S4096x1 r

/-! ## The two stored payloads -/

/-- The [4096, 1] payload read at row r is the row's final borrow. -/
theorem borrow_payload_at :
    k0_pay19 x0 x1 (k0_pay11 x0 x1) (k0_pay12 x0 x1) (ix2 r 0) = borrow4 (rowA x0 r) (rowB x1 r) := by
  show borrowOut (k0_pay17 x0 (ix2 r 0)) (k0_pay18 x1 (ix2 r 0))
    (k0_pay16 x0 x1 (k0_pay11 x0 x1) (k0_pay12 x0 x1) (ix2 r 0)) = _
  rw [a0_at, b0_at, borrow3_at]; rfl

/-- The joined [4096, 4] payload read at (r, j) is difference bit j of row r. -/
theorem diff_payload_at (j : Fin 4) :
    k0_pay20 x0 x1 (k0_pay4 x0 x1) (k0_pay8 x0 x1) (k0_pay11 x0 x1) (k0_pay12 x0 x1) (ix2 r j)
      = diffs (rowA x0 r) (rowB x1 r) j := by
  refine (join4_at (n := 4096) _ _ _ _ concatenates_S4096x1_S4096x1_S4096x1_S4096x1_S4096x4_d1 r j).trans ?_
  match j with
  | ⟨0, _⟩ =>
    show diffBit (k0_pay17 x0 (ix2 r 0)) (k0_pay18 x1 (ix2 r 0))
      (k0_pay16 x0 x1 (k0_pay11 x0 x1) (k0_pay12 x0 x1) (ix2 r 0)) = _
    rw [a0_at, b0_at, borrow3_at]; rfl
  | ⟨1, _⟩ =>
    show diffBit (k0_pay14 x0 (ix2 r 0)) (k0_pay15 x1 (ix2 r 0))
      (k0_pay13 (k0_pay11 x0 x1) (k0_pay12 x0 x1) (ix2 r 0)) = _
    rw [a1_at, b1_at, borrow2_at]; rfl
  | ⟨2, _⟩ => exact diff2_at x0 x1 r
  | ⟨3, _⟩ => exact diff3_at x0 x1 r

end Cert.KernelIdeal.Rows

end
-- ==== Proof.KernelArrays.lean ====
/-
  The kernel's two result arrays, as functions of its argument arrays.

  The grid has 2048 points; at point t every window is at block (t, 0): the two argument windows and the difference
  window hold rows 4096·t … 4096·t + 4095 of their [8388608, 4] arrays, the borrow window the same rows of its
  [8388608, 1] array. The body leaves in the two output buffers the difference bits and the final borrow of each row of
  the two loaded blocks. Row r of block t is row 4096·t + r of the array, so what point t writes back is block t of
  the arrays "difference bits of every row" and "final borrow of every row" of the two arguments; and every row R lies
  in the block of point R / 4096, so the blocks cover both arrays.
-/
import proofs.«144715_j23407571764120_1_alg».proof.Proof.Gen.KernelIdeal.Frame
import proofs.«144715_j23407571764120_1_alg».proof.Proof.KernelRows
import Idealize.ShloMosaic.Lib.Pipeline.Value

noncomputable section

namespace Cert.KernelIdeal.Arrays

open Cert.KernelIdeal Cert.KernelIdeal.Gen Cert.BorrowChain
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- Both buffers are loaded and stored whole: from the origin. -/
theorem origin : (![0, 0] : Fin 2 → Nat) = fun _ => 0 := funext fun a => by fin_cases a <;> rfl

/-! ## One block -/

/-- The [4096, 4] output buffer after the body: the difference bits of every row of the two loaded blocks. -/
theorem diff_block (x0 x1 : Vec F S4096x4 .f32) : out0_2 x0 x1 = diffArr (n := 4096) x0 x1 := by
  unfold out0_2
  rw [View.canon_unit_zero origin]
  simp only [View.ld_unit_zero (S := S4096x4) origin]
  funext y
  obtain ⟨r, j, rfl⟩ : ∃ (r : Fin 4096) (j : Fin 4), y = ix2 r j := ⟨y 0, y 1, eq_ix2 y⟩
  exact Rows.diff_payload_at x0 x1 r j

/-- The [4096, 1] output buffer after the body: the final borrow of every row of the two loaded blocks. -/
theorem borrow_block (x0 x1 : Vec F S4096x4 .f32) : out0_3 x0 x1 = borrowArr (n := 4096) x0 x1 := by
  unfold out0_3
  rw [View.canon_unit_zero origin]
  simp only [View.ld_unit_zero (S := S4096x4) origin]
  funext y
  obtain ⟨r, u, rfl⟩ : ∃ (r : Fin 4096) (u : Fin 1), y = ix2 r u := ⟨y 0, y 1, eq_ix2 y⟩
  obtain rfl : u = 0 := Subsingleton.elim _ _
  exact Rows.borrow_payload_at x0 x1 r

/-! ## Where the blocks are -/

/-- At point t every window is at block (t, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row y of the first argument's block at point t is row 4096·t + y of the array — stated against the row of the same
    number in any window that is at the same block. -/
theorem row_arg0 (c : Dev nD) (t : Fin cfg0.N) (y : Fin 4096) (R : Fin 8388608) (hR : R.val = t.val * 4096 + y.val) :
    rowOf (n := 4096) (iblk m c 0 t) y = rowOf (n := 8388608) (V m c main_arg0) R := by
  obtain ⟨e00, e01, -, -, -, -, -, -⟩ := index_facts t
  funext k
  show V m c main_arg0 (((cfg0.win 0).blk t).view.emb (ix2 y k)) = V m c main_arg0 (ix2 R k)
  refine congrArg (V m c main_arg0) (funext fun a => Fin.ext ?_)
  match a with
  | ⟨0, _⟩ => show win0_0.index t (0 : Fin 2) * 4096 + 1 * y.val = R.val; omega
  | ⟨1, _⟩ => show win0_0.index t (1 : Fin 2) * 4 + 1 * k.val = k.val; omega

theorem row_arg1 (c : Dev nD) (t : Fin cfg0.N) (y : Fin 4096) (R : Fin 8388608) (hR : R.val = t.val * 4096 + y.val) :
    rowOf (n := 4096) (iblk m c 1 t) y = rowOf (n := 8388608) (V m c main_arg1) R := by
  obtain ⟨-, -, e10, e11, -, -, -, -⟩ := index_facts t
  funext k
  show V m c main_arg1 (((cfg0.win 1).blk t).view.emb (ix2 y k)) = V m c main_arg1 (ix2 R k)
  refine congrArg (V m c main_arg1) (funext fun a => Fin.ext ?_)
  match a with
  | ⟨0, _⟩ => show win0_1.index t (0 : Fin 2) * 4096 + 1 * y.val = R.val; omega
  | ⟨1, _⟩ => show win0_1.index t (1 : Fin 2) * 4 + 1 * k.val = k.val; omega

/-! ## The difference bits -/

/-- What point t writes back to the first result is block t of the difference bits of the argument arrays' rows. -/
theorem diff_flushed (c : Dev nD) (t : Fin cfg0.N) :
    (dats m 0 c).flushed 2 t
      = ((cfg0.win 2).blk t).view.read (Elt F) (diffArr (n := 8388608) (V m c main_arg0) (V m c main_arg1)) := by
  show (cfg0.win 2).cut (grid0.coords t) ((dats m 0 c).after 2 t) = _
  rw [after0_2, diff_block]
  obtain ⟨-, -, -, -, e20, e21, -, -⟩ := index_facts t
  funext y
  have hR : ((((cfg0.win 2).blk t).view.emb y) 0).val = t.val * 4096 + (y 0).val := by
    show win0_2.index t (0 : Fin 2) * 4096 + 1 * (y 0).val = _; omega
  have hcol : (((cfg0.win 2).blk t).view.emb y) 1 = y 1 :=
    Fin.ext (by show win0_2.index t (1 : Fin 2) * 4 + 1 * (y 1).val = (y 1).val; omega)
  show diffs (rowOf (n := 4096) (iblk m c 0 t) (y 0)) (rowOf (n := 4096) (iblk m c 1 t) (y 0)) (y 1)
    = diffs (rowOf (n := 8388608) (V m c main_arg0) ((((cfg0.win 2).blk t).view.emb y) 0))
        (rowOf (n := 8388608) (V m c main_arg1) ((((cfg0.win 2).blk t).view.emb y) 0)) ((((cfg0.win 2).blk t).view.emb y) 1)
  rw [row_arg0 m c t (y 0) _ hR, row_arg1 m c t (y 0) _ hR, hcol]

/-- An index of the first result's array is in point t's block iff each coordinate is in the block's range. -/
theorem mem_diff_block (t : Fin cfg0.N) (i : S8388608x4.Idx) :
    i ∈ ((cfg0.win 2).blk t).view.set ↔ ∀ a : Fin 2, win0_2.index t a * S4096x4.size a ≤ (i a).val
      ∧ (i a).val < win0_2.index t a * S4096x4.size a + S4096x4.size a := by
  show i ∈ ((View.whole main_v0_0).slice (win0_2.rect t)).set ↔ _
  rw [View.set_slice_whole, Rect.mem_set_unit]
  exact Iff.rfl

/-- Row R of the first result lies in the block of point R / 4096. -/
theorem diff_cover (i : S8388608x4.Idx) :
    ∃ t : Fin cfg0.N, (cfg0.win 2).flush t = true ∧ i ∈ ((cfg0.win 2).blk t).view.set := by
  have hi0 : (i 0).val < 8388608 := (i 0).isLt
  have hi1 : (i 1).val < 4 := (i 1).isLt
  obtain ⟨t, ht⟩ : ∃ t : Fin cfg0.N, t.val = (i 0).val / 4096 :=
    ⟨⟨(i 0).val / 4096, by show _ < grid0.N; rw [N_0]; omega⟩, rfl⟩
  obtain ⟨-, -, -, -, e20, e21, -, -⟩ := index_facts t
  refine ⟨t, flush0_2 t, ?_⟩
  rw [mem_diff_block]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 4 ≤ (i 1).val ∧ (i 1).val < win0_2.index t (1 : Fin 2) * 4 + 4
    omega

/-- The first result's array after the run: the difference bits of every row of the two arguments. -/
theorem diff_final (c : Dev nD) :
    (dats m 0 c).arrAt 2 cfg0.N
      = diffArr (n := 8388608) (m ((c : Thread nD τ).loc main_arg0)) (m ((c : Thread nD τ).loc main_arg1)) :=
  (dats m 0 c).arrAt_eq_of_cover 2 (diffArr (n := 8388608) (V m c main_arg0) (V m c main_arg1))
    (fun t _ => diff_flushed m c t) diff_cover

/-! ## The final borrow -/

/-- What point t writes back to the second result is block t of the final borrows of the argument arrays' rows. -/
theorem borrow_flushed (c : Dev nD) (t : Fin cfg0.N) :
    (dats m 0 c).flushed 3 t
      = ((cfg0.win 3).blk t).view.read (Elt F) (borrowArr (n := 8388608) (V m c main_arg0) (V m c main_arg1)) := by
  show (cfg0.win 3).cut (grid0.coords t) ((dats m 0 c).after 3 t) = _
  rw [after0_3, borrow_block]
  obtain ⟨-, -, -, -, -, -, e30, e31⟩ := index_facts t
  funext y
  have hR : ((((cfg0.win 3).blk t).view.emb y) 0).val = t.val * 4096 + (y 0).val := by
    show win0_3.index t (0 : Fin 2) * 4096 + 1 * (y 0).val = _; omega
  show borrow4 (rowOf (n := 4096) (iblk m c 0 t) (y 0)) (rowOf (n := 4096) (iblk m c 1 t) (y 0))
    = borrow4 (rowOf (n := 8388608) (V m c main_arg0) ((((cfg0.win 3).blk t).view.emb y) 0))
        (rowOf (n := 8388608) (V m c main_arg1) ((((cfg0.win 3).blk t).view.emb y) 0))
  rw [row_arg0 m c t (y 0) _ hR, row_arg1 m c t (y 0) _ hR]

/-- An index of the second result's array is in point t's block iff each coordinate is in the block's range. -/
theorem mem_borrow_block (t : Fin cfg0.N) (i : S8388608x1.Idx) :
    i ∈ ((cfg0.win 3).blk t).view.set ↔ ∀ a : Fin 2, win0_3.index t a * S4096x1.size a ≤ (i a).val
      ∧ (i a).val < win0_3.index t a * S4096x1.size a + S4096x1.size a := by
  show i ∈ ((View.whole main_v0_1).slice (win0_3.rect t)).set ↔ _
  rw [View.set_slice_whole, Rect.mem_set_unit]
  exact Iff.rfl

/-- Row R of the second result lies in the block of point R / 4096. -/
theorem borrow_cover (i : S8388608x1.Idx) :
    ∃ t : Fin cfg0.N, (cfg0.win 3).flush t = true ∧ i ∈ ((cfg0.win 3).blk t).view.set := by
  have hi0 : (i 0).val < 8388608 := (i 0).isLt
  have hi1 : (i 1).val < 1 := (i 1).isLt
  obtain ⟨t, ht⟩ : ∃ t : Fin cfg0.N, t.val = (i 0).val / 4096 :=
    ⟨⟨(i 0).val / 4096, by show _ < grid0.N; rw [N_0]; omega⟩, rfl⟩
  obtain ⟨-, -, -, -, -, -, e30, e31⟩ := index_facts t
  refine ⟨t, flush0_3 t, ?_⟩
  rw [mem_borrow_block]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 1 ≤ (i 1).val ∧ (i 1).val < win0_3.index t (1 : Fin 2) * 1 + 1
    omega

/-- The second result's array after the run: the final borrow of every row of the two arguments. -/
theorem borrow_final (c : Dev nD) :
    (dats m 0 c).arrAt 3 cfg0.N
      = borrowArr (n := 8388608) (m ((c : Thread nD τ).loc main_arg0)) (m ((c : Thread nD τ).loc main_arg1)) :=
  (dats m 0 c).arrAt_eq_of_cover 3 (borrowArr (n := 8388608) (V m c main_arg0) (V m c main_arg1))
    (fun t _ => borrow_flushed m c t) borrow_cover

/-! ## The run -/

/-- Every weakly fair execution of the kernel's program terminates with the first result at the difference bits and the
    second at the final borrow of every row of the argument arrays, and the arguments unchanged. -/
theorem run : θ_run defs (onTc (τ := τ) (main (F := F))) ⟨m, fun _ => 0, ρ⟩ fun r => ∀ c : Dev nD,
      r.2.mem ((c : Thread nD τ).loc main_v0_0)
        = diffArr (n := 8388608) (m ((c : Thread nD τ).loc main_arg0)) (m ((c : Thread nD τ).loc main_arg1))
      ∧ r.2.mem ((c : Thread nD τ).loc main_v0_1)
        = borrowArr (n := 8388608) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (diff_final m c), ((h c).1 3).trans (borrow_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Arrays

end
-- ==== Proof.ReferenceRows.lean ====
/-
  The reference, row by row.

  The reference's run (the generated module this file imports) states its two results over named intermediate columns,
  one per value of the program that is used more than once. Read at row r, each of them is a term of the borrow chain of
  that row of the two arguments: the column slices are the rows' entries, the three broadcast constants are the gate
  levels 0, 1 and 2, and every other operation is pointwise, so each stage unfolds to the gate formulas with the
  previous stage's borrow in place. The joined result read at (r, j) is difference bit j of row r, and the last column
  read at row r is the row's final borrow.
-/
import proofs.«144715_j23407571764120_1_alg».proof.Proof.Gen.ReferenceIdeal.Run
import proofs.«144715_j23407571764120_1_alg».proof.Proof.BorrowChain

noncomputable section

namespace Cert.ReferenceIdeal.Rows

open Cert.ReferenceIdeal Cert.ReferenceIdeal.Gen Cert.ReferenceIdeal.Value Cert.BorrowChain Cert.FourColumns
open Idealize.ShloMosaic Idealize.ShloMosaic.TcCoe Idealize.SL.Sem Idealize.ShloMosaic.StableHlo Idealize.ShloMosaic.ValueIdx

variable {F : FTy → Type} [FloatOps F]
variable (V0 : Valuation τ sig (Elt F)) (r : Fin 8388608)

/-- Row r of the first argument as the run finds it. -/
def rowA : Fin 4 → F .f32 := rowOf (n := 8388608) (V0 (Proc.devRef .tc main_arg0)) r
/-- Row r of the second argument as the run finds it. -/
def rowB : Fin 4 → F .f32 := rowOf (n := 8388608) (V0 (Proc.devRef .tc main_arg1)) r

/-! ## Bit 3 -/

theorem zero_at : res_main_v1 V0 (ix2 r 0) = (lvl0 : F .f32) := rfl

theorem a3_at : res_main_v2 V0 (ix2 r 0) = rowA V0 r 3 :=
  column_at (n := 8388608) 3 (V0 (Proc.devRef .tc main_arg0)) slices_S8388608x4_S8388608x1_0_3 r
theorem b3_at : res_main_v3 V0 (ix2 r 0) = rowB V0 r 3 :=
  column_at (n := 8388608) 3 (V0 (Proc.devRef .tc main_arg1)) slices_S8388608x4_S8388608x1_0_3 r

/-- The borrow after bit 3. -/
theorem borrow1_at : res_main_v24 V0 (ix2 r 0) = borrow1 (rowA V0 r) (rowB V0 r) := by
  show borrowOut (res_main_v2 V0 (ix2 r 0)) (res_main_v3 V0 (ix2 r 0)) (res_main_v1 V0 (ix2 r 0)) = _
  rw [a3_at, b3_at, zero_at]; rfl

/-! ## Bit 2 -/

theorem a2_at : res_main_v25 V0 (ix2 r 0) = rowA V0 r 2 :=
  column_at (n := 8388608) 2 (V0 (Proc.devRef .tc main_arg0)) slices_S8388608x4_S8388608x1_0_2 r
theorem b2_at : res_main_v26 V0 (ix2 r 0) = rowB V0 r 2 :=
  column_at (n := 8388608) 2 (V0 (Proc.devRef .tc main_arg1)) slices_S8388608x4_S8388608x1_0_2 r

/-- The borrow after bit 2. -/
theorem borrow2_at : res_main_v47 V0 (ix2 r 0) = borrow2 (rowA V0 r) (rowB V0 r) := by
  show borrowOut (res_main_v25 V0 (ix2 r 0)) (res_main_v26 V0 (ix2 r 0)) (res_main_v24 V0 (ix2 r 0)) = _
  rw [a2_at, b2_at, borrow1_at]; rfl

/-! ## Bit 1 -/

theorem a1_at : res_main_v48 V0 (ix2 r 0) = rowA V0 r 1 :=
  column_at (n := 8388608) 1 (V0 (Proc.devRef .tc main_arg0)) slices_S8388608x4_S8388608x1_0_1 r
theorem b1_at : res_main_v49 V0 (ix2 r 0) = rowB V0 r 1 :=
  column_at (n := 8388608) 1 (V0 (Proc.devRef .tc main_arg1)) slices_S8388608x4_S8388608x1_0_1 r

/-- The borrow after bit 1. -/
theorem borrow3_at : res_main_v70 V0 (ix2 r 0) = borrow3 (rowA V0 r) (rowB V0 r) := by
  show borrowOut (res_main_v48 V0 (ix2 r 0)) (res_main_v49 V0 (ix2 r 0)) (res_main_v47 V0 (ix2 r 0)) = _
  rw [a1_at, b1_at, borrow2_at]; rfl

/-! ## Bit 0 -/

theorem a0_at : res_main_v71 V0 (ix2 r 0) = rowA V0 r 0 :=
  column_at (n := 8388608) 0 (V0 (Proc.devRef .tc main_arg0)) slices_S8388608x4_S8388608x1_0_0 r
theorem b0_at : res_main_v72 V0 (ix2 r 0) = rowB V0 r 0 :=
  column_at (n := 8388608) 0 (V0 (Proc.devRef .tc main_arg1)) slices_S8388608x4_S8388608x1_0_0 r

/-! ## The two results -/

/-- The last column of the run, read at row r, is the row's final borrow. -/
theorem borrow_result_at :
    subf (addf (res_main_v90 V0) (res_main_v87 V0)) (mulf (res_main_v90 V0) (res_main_v87 V0)) (ix2 r 0)
      = borrow4 (rowA V0 r) (rowB V0 r) := by
  show borrowOut (res_main_v71 V0 (ix2 r 0)) (res_main_v72 V0 (ix2 r 0)) (res_main_v70 V0 (ix2 r 0)) = _
  rw [a0_at, b0_at, borrow3_at]; rfl

/-- The exclusive-or stage of bit 0 over its incoming borrow, read at row r. -/
theorem diff0_at :
    subf (addf (res_main_v77 V0) (res_main_v70 V0))
        (mulf (mulf (broadcastInDim S8388608x1 ![] bcast_S_S8388608x1 (constant S_ .f32 0x40000000#32)) (res_main_v77 V0)) (res_main_v70 V0)) (ix2 r 0)
      = diffBit (rowA V0 r 0) (rowB V0 r 0) (borrow3 (rowA V0 r) (rowB V0 r)) := by
  show diffBit (res_main_v71 V0 (ix2 r 0)) (res_main_v72 V0 (ix2 r 0)) (res_main_v70 V0 (ix2 r 0)) = _
  rw [a0_at, b0_at, borrow3_at]

theorem diff1_at :
    subf (addf (res_main_v54 V0) (res_main_v47 V0))
        (mulf (mulf (broadcastInDim S8388608x1 ![] bcast_S_S8388608x1 (constant S_ .f32 0x40000000#32)) (res_main_v54 V0)) (res_main_v47 V0)) (ix2 r 0)
      = diffBit (rowA V0 r 1) (rowB V0 r 1) (borrow2 (rowA V0 r) (rowB V0 r)) := by
  show diffBit (res_main_v48 V0 (ix2 r 0)) (res_main_v49 V0 (ix2 r 0)) (res_main_v47 V0 (ix2 r 0)) = _
  rw [a1_at, b1_at, borrow2_at]

theorem diff2_at :
    subf (addf (res_main_v31 V0) (res_main_v24 V0))
        (mulf (mulf (broadcastInDim S8388608x1 ![] bcast_S_S8388608x1 (constant S_ .f32 0x40000000#32)) (res_main_v31 V0)) (res_main_v24 V0)) (ix2 r 0)
      = diffBit (rowA V0 r 2) (rowB V0 r 2) (borrow1 (rowA V0 r) (rowB V0 r)) := by
  show diffBit (res_main_v25 V0 (ix2 r 0)) (res_main_v26 V0 (ix2 r 0)) (res_main_v24 V0 (ix2 r 0)) = _
  rw [a2_at, b2_at, borrow1_at]

theorem diff3_at :
    subf (addf (res_main_v8 V0) (res_main_v1 V0))
        (mulf (mulf (broadcastInDim S8388608x1 ![] bcast_S_S8388608x1 (constant S_ .f32 0x40000000#32)) (res_main_v8 V0)) (res_main_v1 V0)) (ix2 r 0)
      = diffBit (rowA V0 r 3) (rowB V0 r 3) (lvl0 : F .f32) := by
  show diffBit (res_main_v2 V0 (ix2 r 0)) (res_main_v3 V0 (ix2 r 0)) (res_main_v1 V0 (ix2 r 0)) = _
  rw [a3_at, b3_at, zero_at]

/-! ## The two result arrays -/

/-- The joined result is the difference bits of every row of the two arguments. -/
theorem diff_result :
    concatenate S8388608x4 1 [⟨S8388608x1, (subf (addf (res_main_v77 V0) (res_main_v70 V0)) (mulf (mulf (broadcastInDim S8388608x1 ![] bcast_S_S8388608x1 (constant S_ .f32 0x40000000#32)) (res_main_v77 V0)) (res_main_v70 V0)))⟩, ⟨S8388608x1, (subf (addf (res_main_v54 V0) (res_main_v47 V0)) (mulf (mulf (broadcastInDim S8388608x1 ![] bcast_S_S8388608x1 (constant S_ .f32 0x40000000#32)) (res_main_v54 V0)) (res_main_v47 V0)))⟩, ⟨S8388608x1, (subf (addf (res_main_v31 V0) (res_main_v24 V0)) (mulf (mulf (broadcastInDim S8388608x1 ![] bcast_S_S8388608x1 (constant S_ .f32 0x40000000#32)) (res_main_v31 V0)) (res_main_v24 V0)))⟩, ⟨S8388608x1, (subf (addf (res_main_v8 V0) (res_main_v1 V0)) (mulf (mulf (broadcastInDim S8388608x1 ![] bcast_S_S8388608x1 (constant S_ .f32 0x40000000#32)) (res_main_v8 V0)) (res_main_v1 V0)))⟩] concatenates_S8388608x1_S8388608x1_S8388608x1_S8388608x1_S8388608x4_d1
      = diffArr (n := 8388608) (V0 (Proc.devRef .tc main_arg0)) (V0 (Proc.devRef .tc main_arg1)) := by
  funext i
  obtain ⟨r, j, rfl⟩ : ∃ (r : Fin 8388608) (j : Fin 4), i = ix2 r j := ⟨i 0, i 1, eq_ix2 i⟩
  refine (join4_at (n := 8388608) _ _ _ _ concatenates_S8388608x1_S8388608x1_S8388608x1_S8388608x1_S8388608x4_d1 r j).trans ?_
  match j with
  | ⟨0, _⟩ => exact diff0_at V0 r
  | ⟨1, _⟩ => exact diff1_at V0 r
  | ⟨2, _⟩ => exact diff2_at V0 r
  | ⟨3, _⟩ => exact diff3_at V0 r

/-- The last column is the final borrow of every row of the two arguments. -/
theorem borrow_result :
    subf (addf (res_main_v90 V0) (res_main_v87 V0)) (mulf (res_main_v90 V0) (res_main_v87 V0))
      = borrowArr (n := 8388608) (V0 (Proc.devRef .tc main_arg0)) (V0 (Proc.devRef .tc main_arg1)) := by
  funext i
  obtain ⟨r, u, rfl⟩ : ∃ (r : Fin 8388608) (u : Fin 1), i = ix2 r u := ⟨i 0, i 1, eq_ix2 i⟩
  obtain rfl : u = 0 := Subsingleton.elim _ _
  exact borrow_result_at V0 r

end Cert.ReferenceIdeal.Rows

end
-- ==== Proof.lean ====
/-
  A four-bit ripple-borrow subtractor over arithmetic gates: the tiled kernel against the whole-array reference.

  Each row of the two [8388608, 4] arguments holds four gate levels. Both programs run, from bit 3 to bit 0, the stage
  "difference bit = xor (xor a b) borrow, next borrow = or (or ((1 − a)·b) ((1 − a)·borrow)) (b·borrow)" with
  xor x y = x + y − (2·x)·y and or x y = x + y − x·y, starting from borrow 0, and return the four difference bits of every
  row and the last borrow of every row. The kernel does this on blocks of 4096 rows over a grid of 2048 points; the
  reference on the whole arrays. The two programs apply the same operations in the same order to the same entries, so
  their results are equal on all extended reals, without any law of arithmetic and without the finiteness of the inputs:
  what is proved is that each side's result, read at an index, is the one row function (Proof/BorrowChain.lean) of that
  row of the arguments — for the kernel payload by payload and then block by block (Proof/KernelRows.lean,
  Proof/KernelArrays.lean), for the reference stage by stage of its run (Proof/ReferenceRows.lean).

  The three frames: the two kernel programs' are their generated frame certificates; the reference's is its generated
  run with the results dropped. The idealization rewrote no operation, so there is nothing to preserve.
-/
import proofs.«144715_j23407571764120_1_alg».proof.Defs
import proofs.«144715_j23407571764120_1_alg».proof.Proof.Gen.Kernel
import proofs.«144715_j23407571764120_1_alg».proof.Proof.Gen.Kernel.Skeleton
import proofs.«144715_j23407571764120_1_alg».proof.Proof.Gen.Kernel.Launch
import proofs.«144715_j23407571764120_1_alg».proof.Proof.Gen.Kernel.Points
import proofs.«144715_j23407571764120_1_alg».proof.Proof.Gen.Kernel.Frame
import proofs.«144715_j23407571764120_1_alg».proof.Proof.Gen.KernelIdeal
import proofs.«144715_j23407571764120_1_alg».proof.Proof.Gen.KernelIdeal.Skeleton
import proofs.«144715_j23407571764120_1_alg».proof.Proof.Gen.KernelIdeal.Launch
import proofs.«144715_j23407571764120_1_alg».proof.Proof.Gen.KernelIdeal.Points
import proofs.«144715_j23407571764120_1_alg».proof.Proof.Gen.KernelIdeal.Frame
import proofs.«144715_j23407571764120_1_alg».proof.Proof.Gen.ReferenceIdeal
import proofs.«144715_j23407571764120_1_alg».proof.Proof.Gen.ReferenceIdeal.Run
import proofs.«144715_j23407571764120_1_alg».proof.Proof.Gen.Pre_finite_inputs
import proofs.«144715_j23407571764120_1_alg».proof.Proof.KernelArrays
import proofs.«144715_j23407571764120_1_alg».proof.Proof.ReferenceRows
import Idealize.ShloMosaic.Adequacy
import Idealize.ShloMosaic.Init

noncomputable section

namespace Cert.Proof

open Idealize.ShloMosaic Idealize.SL.Sem Cert.BorrowChain

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the difference bits and the final borrow of every row of the arguments. -/
theorem algebraic : Cert.algebraic_KernelIdeal_ReferenceIdeal := by
  intro m ρ m' ρ' _ hagree
  refine ⟨_, _, Cert.KernelIdeal.Arrays.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact (Cert.ReferenceIdeal.Rows.diff_result (F := Ideal) (StableHlo.launchContents m' c)).trans
      (congr (congrArg (diffArr (F := Ideal) (n := 8388608)) (hagree c).1) (hagree c).2)
  · exact (Cert.ReferenceIdeal.Rows.borrow_result (F := Ideal) (StableHlo.launchContents m' c)).trans
      (congr (congrArg (borrowArr (F := Ideal) (n := 8388608)) (hagree c).1) (hagree c).2)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
